-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64 : Shape := ⟨2, ![4096, 64]⟩
abbrev S1x1024x64 : Shape := ⟨3, ![1, 1024, 64]⟩
abbrev S64x64 : Shape := ⟨2, ![64, 64]⟩
abbrev S64 : Shape := ⟨1, ![64]⟩
abbrev S_ : Shape := ⟨0, ![]⟩

class Facts : Prop where
  bcast_S_S4096x64 : S_.BroadcastsInDim S4096x64 (![] : Fin 0 → Fin S4096x64.rank)
  reducesTo_S4096x64_S_d0_1 : S4096x64.ReducesTo [0, 1] S_
  h_S_ : 0 < S_.numel
  bcast_S_S1x1024x64 : S_.BroadcastsInDim S1x1024x64 (![] : Fin 0 → Fin S1x1024x64.rank)
  reducesTo_S1x1024x64_S_d0_1_2 : S1x1024x64.ReducesTo [0, 1, 2] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S4096x64 .f32) (main_arg1 : FVec F S1x1024x64 .f32) (main_arg2 : FVec F S64x64 .f32) (main_arg3 : FVec F S64 .f32) : IVec S_ 1 :=
  let main_v0 : FVec F S4096x64 .f32 := Host.absf main_arg0
  let main_cst : FVec F S_ .f32 := constant S_ .f32 0x7F800000#32
  let main_v1 : FVec F S4096x64 .f32 := broadcastInDim S4096x64 ![] bcast_S_S4096x64 main_cst
  let main_v2 : IVec S4096x64 1 := cmpf .olt main_v0 main_v1
  let main_c : IVec S_ 1 := constantI S_ 1 1#1
  let main_v3 : IVec S_ 1 := (fun x v => Host.reduce IntOp.andi x v reducesTo_S4096x64_S_d0_1 h_S_) main_v2 main_c
  let main_v4 : FVec F S1x1024x64 .f32 := Host.absf main_arg1
  let main_cst_0 : FVec F S_ .f32 := constant S_ .f32 0x7F800000#32
  let main_v5 : FVec F S1x1024x64 .f32 := broadcastInDim S1x1024x64 ![] bcast_S_S1x1024x64 main_cst_0
  let main_v6 : IVec S1x1024x64 1 := cmpf .olt main_v4 main_v5
  let main_c_1 : IVec S_ 1 := constantI S_ 1 1#1
  let main_v7 : IVec S_ 1 := (fun x v => Host.reduce IntOp.andi x v reducesTo_S1x1024x64_S_d0_1_2 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S4096x64 : Shape := ⟨2, ![4096, 64]⟩
abbrev S1x1024x64 : Shape := ⟨3, ![1, 1024, 64]⟩
abbrev S64x64 : Shape := ⟨2, ![64, 64]⟩
abbrev S64 : Shape := ⟨1, ![64]⟩
abbrev S1024x64 : Shape := ⟨2, ![1024, 64]⟩
abbrev S1x64 : Shape := ⟨2, ![1, 64]⟩
abbrev S2048x64 : Shape := ⟨2, ![2048, 64]⟩
abbrev S2048x1024 : Shape := ⟨2, ![2048, 1024]⟩
abbrev S1024x1 : Shape := ⟨2, ![1024, 1]⟩
abbrev S1024x65 : Shape := ⟨2, ![1024, 65]⟩
abbrev S2048x65 : Shape := ⟨2, ![2048, 65]⟩
abbrev S2048x1 : Shape := ⟨2, ![2048, 1]⟩

abbrev nBuf : Space → Nat
  | .hbm => 7
  | .vmem => 7
  | .smem => 0
  | _ => 0

abbrev bufTy : (tb : Table) → Fin (tcTables nBuf tb) → BufTy
  | .hbm, ⟨0, _⟩ => ⟨S4096x64, .f32⟩
  | .hbm, ⟨1, _⟩ => ⟨S1x1024x64, .f32⟩
  | .hbm, ⟨2, _⟩ => ⟨S64x64, .f32⟩
  | .hbm, ⟨3, _⟩ => ⟨S64, .f32⟩
  | .hbm, ⟨4, _⟩ => ⟨S1024x64, .f32⟩
  | .hbm, ⟨5, _⟩ => ⟨S1x64, .f32⟩
  | .hbm, ⟨6, _⟩ => ⟨S4096x64, .f32⟩
  | .local _ .vmem, ⟨0, _⟩ => ⟨S2048x64, .f32⟩
  | .local _ .vmem, ⟨1, _⟩ => ⟨S2048x64, .f32⟩
  | .local _ .vmem, ⟨2, _⟩ => ⟨S1024x64, .f32⟩
  | .local _ .vmem, ⟨3, _⟩ => ⟨S64x64, .f32⟩
  | .local _ .vmem, ⟨4, _⟩ => ⟨S1x64, .f32⟩
  | .local _ .vmem, ⟨5, _⟩ => ⟨S2048x64, .f32⟩
  | .local _ .vmem, ⟨6, _⟩ => ⟨S2048x64, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1x1024x64_S1024x64 : S1x1024x64.ShapeCasts S1024x64
  shapeCasts_S64_S1x64 : S64.ShapeCasts S1x64
  inb_S2048x64_S2048x64_0_0 : ∀ a, (![0, 0] : Fin 2 → Nat) a + S2048x64.size a ≤ S2048x64.size a
  h_S2048x64 : 0 < S2048x64.numel
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  concatenates_S1024x64_S1024x1_S1024x65_d1 : Shape.Concatenates [S1024x64, S1024x1] S1024x65 1
  slices_S2048x65_o0_64_S2048x1 : S2048x65.Slices ![0, 64] S2048x1
  slices_S2048x65_o0_0_S2048x64 : S2048x65.Slices ![0, 0] S2048x64
  broadcasts_S2048x1_S2048x64 : S2048x1.Broadcasts S2048x64
  dot_S2048x64_S64x64_S2048x64_1_1_0_0_n_n_wf : DotDims.WF S2048x64 S64x64 S2048x64 [1] [1] [0] [0] [] []
  dot_S2048x64_S1024x64_S2048x1024_1_1_0_0_n_n_wf : DotDims.WF S2048x64 S1024x64 S2048x1024 [1] [1] [0] [0] [] []
  dot_S2048x1024_S1024x65_S2048x65_1_0_0_1_n_n_wf : DotDims.WF S2048x1024 S1024x65 S2048x65 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S4096x64.size a
  hwx0_0 : ∀ i : grid0.Coords, EltTy.bits .f32 = 32 ∨ (Rect.block (s := S4096x64) S2048x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S1024x64.size a
  hwx0_1 : ∀ i : grid0.Coords, EltTy.bits .f32 = 32 ∨ (Rect.block (s := S1024x64) S1024x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x64.size a ≤ S4096x64.size a
  hwx0_4 : ∀ i : grid0.Coords, EltTy.bits .f32 = 32 ∨ (Rect.block (s := S4096x64) S2048x64.size (cc0_transform_4 i) (hinb0_4 i)).WholeWords (EltTy.packing .f32)

variable [Facts₀]

def dot_S2048x64_S64x64_S2048x64_1_1_0_0_n_n : DotDims S2048x64 S64x64 S2048x64 where
  lhsContracting := [1]
  rhsContracting := [1]
  lhsNonContracting := [0]
  rhsNonContracting := [0]
  lhsBatch := []
  rhsBatch := []
  wf := dot_S2048x64_S64x64_S2048x64_1_1_0_0_n_n_wf
def dot_S2048x64_S1024x64_S2048x1024_1_1_0_0_n_n : DotDims S2048x64 S1024x64 S2048x1024 where
  lhsContracting := [1]
  rhsContracting := [1]
  lhsNonContracting := [0]
  rhsNonContracting := [0]
  lhsBatch := []
  rhsBatch := []
  wf := dot_S2048x64_S1024x64_S2048x1024_1_1_0_0_n_n_wf
def dot_S2048x1024_S1024x65_S2048x65_1_0_0_1_n_n : DotDims S2048x1024 S1024x65 S2048x65 where
  lhsContracting := [1]
  rhsContracting := [0]
  lhsNonContracting := [0]
  rhsNonContracting := [1]
  lhsBatch := []
  rhsBatch := []
  wf := dot_S2048x1024_S1024x65_S2048x65_1_0_0_1_n_n_wf

abbrev win0_0 : Pipeline.Window sig grid0 :=
  Pipeline.Window.ofSpec (Memref.whole main_arg0) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S1024x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S2048x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x64 : Shape := ⟨2, ![4096, 64]⟩
abbrev S1x1024x64 : Shape := ⟨3, ![1, 1024, 64]⟩
abbrev S64x64 : Shape := ⟨2, ![64, 64]⟩
abbrev S64 : Shape := ⟨1, ![64]⟩
abbrev S1x64 : Shape := ⟨2, ![1, 64]⟩
abbrev S1024x64 : Shape := ⟨2, ![1024, 64]⟩
abbrev S64x1024 : Shape := ⟨2, ![64, 1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩

abbrev nBuf : Space → Nat
  | .hbm => 30
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S1x1024x64, .f32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S4096x64, .f32⟩
  | .hbm, ⟨6, _⟩ => ⟨S1x64, .f32⟩
  | .hbm, ⟨7, _⟩ => ⟨S4096x64, .f32⟩
  | .hbm, ⟨8, _⟩ => ⟨S4096x64, .f32⟩
  | .hbm, ⟨9, _⟩ => ⟨S1024x64, .f32⟩
  | .hbm, ⟨10, _⟩ => ⟨S64x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S_, .f32⟩
  | .hbm, ⟨18, _⟩ => ⟨S4096, .f32⟩
  | .hbm, ⟨19, _⟩ => ⟨S4096, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S4096x64, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]

class Facts₀ : Prop where
  transposes_S64x64_S64x64_1_0 : S64x64.Transposes [1, 0] S64x64
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  shapeCasts_S1x1024x64_S1024x64 : S1x1024x64.ShapeCasts S1024x64
  transposes_S1024x64_S64x1024_1_0 : S1024x64.Transposes [1, 0] S64x1024
  bcast_S_S4096x1024 : S_.BroadcastsInDim S4096x1024 (![] : Fin 0 → Fin S4096x1024.rank)
  reducesTo_S4096x1024_S4096_d1 : S4096x1024.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x1024_0_1 : S4096x1.BroadcastsInDim S4096x1024 (![0, 1] : Fin 2 → Fin S4096x1024.rank)
  dot_S4096x64_S64x64_S4096x64_1_0_0_1_n_n_wf : DotDims.WF S4096x64 S64x64 S4096x64 [1] [0] [0] [1] [] []
  dot_S4096x64_S64x1024_S4096x1024_1_0_0_1_n_n_wf : DotDims.WF S4096x64 S64x1024 S4096x1024 [1] [0] [0] [1] [] []
  dot_S4096x1024_S1024x64_S4096x64_1_0_0_1_n_n_wf : DotDims.WF S4096x1024 S1024x64 S4096x64 [1] [0] [0] [1] [] []

variable [Facts₀]

def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S4096x64_S64x1024_S4096x1024_1_0_0_1_n_n : DotDims S4096x64 S64x1024 S4096x1024 where
  lhsContracting := [1]
  rhsContracting := [0]
  lhsNonContracting := [0]
  rhsNonContracting := [1]
  lhsBatch := []
  rhsBatch := []
  wf := dot_S4096x64_S64x1024_S4096x1024_1_0_0_1_n_n_wf
def dot_S4096x1024_S1024x64_S4096x64_1_0_0_1_n_n : DotDims S4096x1024 S1024x64 S4096x64 where
  lhsContracting := [1]
  rhsContracting := [0]
  lhsNonContracting := [0]
  rhsNonContracting := [1]
  lhsBatch := []
  rhsBatch := []
  wf := dot_S4096x1024_S1024x64_S4096x64_1_0_0_1_n_n_wf

class Facts : Prop extends Facts₀ where

variable [Facts]
-- ==== Proof.LibMatAssoc.lean ====
/-
  Sums of products of finite numbers on the extended reals.

  On the extended reals a product does not distribute over a sum once an infinity is involved, so the law
  a (d w) = (a d) w of matrix products is proved where every entry is a real number: there both sides are the coercion
  of one real double sum. Beside it, a sum over the first B (K + 1) naturals is the sum over the first B K of them
  plus the sum over the next B, which is how a contraction cut into tiles of B is put together again.
-/
import Mathlib.Data.EReal.Basic
import Mathlib.Algebra.BigOperators.Ring.Finset
import Mathlib.Algebra.BigOperators.Intervals

namespace Cert.MatAssoc

open Finset

/-- A number that is a real: neither infinity. -/
def IsReal (x : EReal) : Prop := ∃ r : ℝ, x = (r : EReal)

theorem isReal_zero : IsReal 0 := ⟨0, rfl⟩

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Associativity of a triple product of matrices of reals, entry by entry: for a row `a` of the first factor, the
    second factor `d` and a column `w` of the third, Σₙ a n · (Σ_f d n f · w f) = Σ_f (Σₙ a n · d n f) · w f. -/
theorem assoc_of_real (N K : ℕ) (a : ℕ → EReal) (d : ℕ → ℕ → EReal) (w : ℕ → EReal)
    (ha : ∀ n, IsReal (a n)) (hd : ∀ n f, IsReal (d n f)) (hw : ∀ f, IsReal (w f)) :
    ∑ n ∈ range N, a n * ∑ f ∈ range K, d n f * w f = ∑ f ∈ range K, (∑ n ∈ range N, a n * d n f) * w f := by
  choose a' ha using ha
  choose d' hd using hd
  choose w' hw using hw
  simp only [ha, hd, hw, ← EReal.coe_mul, ← coe_sum]
  congr 1
  simp only [Finset.mul_sum, Finset.sum_mul]
  rw [Finset.sum_comm]
  exact Finset.sum_congr rfl fun f _ => Finset.sum_congr rfl fun n _ => by ring

/-- One more tile of `B` terms. -/
theorem sum_tiles_succ (B K : ℕ) (g : ℕ → EReal) :
    ∑ n ∈ range (B * (K + 1)), g n = ∑ n ∈ range (B * K), g n + ∑ q ∈ range B, g (B * K + q) := by
  rw [mul_add, mul_one, Finset.sum_range_add]

end Cert.MatAssoc
-- ==== Proof.AttnReal.lean ====
/-
  Attention of one query row against a bank of 1024 memory rows, over the real numbers.

  A query row x is projected, q_j = Σ_k x_k W_jk + b_j; its score against memory row n is s_n = (Σ_j q_j M_nj) / 8; the row's
  answer is the softmax-weighted mean of the memory rows, a_d = (Σ_n e^{s_n} M_nd) / (Σ_n e^{s_n}).
  Two ways of computing it are shown to give this number. One folds the factor 1/8 into W and b before the products and
  multiplies the unnormalised sum by the reciprocal of the total mass. The other subtracts a number m from every score
  before exponentiating and normalises each weight e^{s_n − m} / Σ e^{s_n' − m} before the last product: the factor
  e^{−m} cancels between numerator and denominator, for every real m.
  Beside it: the maximum of finitely many reals (at least one), folded from −∞ on the extended reals, is a real; and the
  four float constants the programs spell, as the numbers they denote.
-/
import Idealize.ShloMosaic.PureOps.Ideal
import Idealize.ShloMosaic.Lib.ValueIdx
import proofs.«127425_g28106265985550_cont_9to1_1613_23_alg».proof.Proof.LibMatAssoc

noncomputable section

namespace Cert.Attn

open Idealize.ShloMosaic Finset

variable (M : Fin 1024 → Fin 64 → ℝ) (W : Fin 64 → Fin 64 → ℝ) (B : Fin 64 → ℝ) (x : Fin 64 → ℝ)

/-- The projected query row. -/
def proj (j : Fin 64) : ℝ := ∑ k, x k * W j k + B j

/-- The score of the row against memory row n. -/
def score (n : Fin 1024) : ℝ := (∑ j, proj W B x j * M n j) / 8

/-- The total mass Σ_n e^{s_n}. -/
def mass : ℝ := ∑ n, Real.exp (score M W B x n)

/-- The row's answer: the softmax-weighted mean of the memory rows. -/
def attend (d : Fin 64) : ℝ := (∑ n, Real.exp (score M W B x n) * M n d) / mass M W B x

theorem mass_pos : 0 < mass M W B x := Finset.sum_pos (fun _ _ => Real.exp_pos _) Finset.univ_nonempty

/-- Folding 1/8 into the projection's weights and bias gives the scaled score. -/
theorem scaled_score (n : Fin 1024) :
    ∑ j, (∑ k, x k * (W j k * (1 / 8)) + B j * (1 / 8)) * M n j = score M W B x n := by
  unfold score proj
  rw [Finset.sum_div]
  refine Finset.sum_congr rfl fun j _ => ?_
  have h : ∑ k, x k * (W j k * (1 / 8)) = (∑ k, x k * W j k) * (1 / 8) := by
    rw [Finset.sum_mul]; exact Finset.sum_congr rfl fun k _ => by ring
  rw [h]; ring

/-- The unnormalised sum times the reciprocal of the mass. -/
theorem times_reciprocal (d : Fin 64) :
    (∑ n, Real.exp (score M W B x n) * M n d) * (1 / ∑ n, Real.exp (score M W B x n)) = attend M W B x d := by
  unfold attend mass; rw [mul_one_div]

/-- Shifting every score by m and normalising each weight first: e^{−m} cancels. -/
theorem shifted_normalised (m : ℝ) (d : Fin 64) :
    ∑ n, (Real.exp (score M W B x n - m) * (1 / ∑ n', Real.exp (score M W B x n' - m))) * M n d = attend M W B x d := by
  have hE : Real.exp m ≠ 0 := (Real.exp_pos m).ne'
  have hS : (∑ n', Real.exp (score M W B x n' - m)) = mass M W B x / Real.exp m := by
    unfold mass; rw [Finset.sum_div]; exact Finset.sum_congr rfl fun n _ => Real.exp_sub _ _
  have hm : mass M W B x ≠ 0 := (mass_pos M W B x).ne'
  unfold attend
  rw [hS, Finset.sum_div]
  refine Finset.sum_congr rfl fun n _ => ?_
  rw [Real.exp_sub]
  field_simp

/-- The shifted mass is not zero. -/
theorem shifted_mass_ne (m : ℝ) : (∑ n', Real.exp (score M W B x n' - m)) ≠ 0 :=
  (Finset.sum_pos (fun _ _ => Real.exp_pos _) Finset.univ_nonempty).ne'

/-- The maximum of finitely many reals, at least one, folded from −∞, is a real. -/
theorem fold_max_real {n : Nat} (hn : 0 < n) (f : Fin n → EReal) (hf : ∀ k, ∃ r : ℝ, f k = r) :
    ∃ r : ℝ, (Finset.univ : Finset (Fin n)).fold max ⊥ f = r := by
  have key : ∀ s : Finset (Fin n), s.fold max ⊥ f = ⊥ ∨ ∃ r : ℝ, s.fold max ⊥ f = r := by
    intro s
    induction s using Finset.induction_on with
    | empty => left; simp
    | insert a s ha ih =>
      right
      rw [Finset.fold_insert ha]
      obtain ⟨r, hr⟩ := hf a
      rcases ih with h | ⟨r', h⟩
      · exact ⟨r, by rw [h, hr]; exact max_eq_left bot_le⟩
      · exact ⟨max r r', by rw [h, hr]; exact (EReal.coe_strictMono.monotone.map_max).symm⟩
  rcases key Finset.univ with h | h
  · exfalso
    obtain ⟨r, hr⟩ := hf ⟨0, hn⟩
    have hle : f ⟨0, hn⟩ ≤ (Finset.univ : Finset (Fin n)).fold max ⊥ f :=
      (Finset.le_fold_max _).mpr (Or.inr ⟨_, Finset.mem_univ _, le_rfl⟩)
    rw [h, hr] at hle
    exact absurd hle (by simp)
  · exact h

/-! ## The whole result -/

open Idealize.ShloMosaic.ValueIdx in
/-- The 4096×64 result as one function of four arrays of reals — the queries [4096,64], the bank [1,1024,64], the
    weights [64,64] and the bias [64]: entry (r, d) is the attention answer of query row r at column d. -/
def outArray (A0 : (⟨2, ![4096, 64]⟩ : Shape).Idx → ℝ) (A1 : (⟨3, ![1, 1024, 64]⟩ : Shape).Idx → ℝ)
    (A2 : (⟨2, ![64, 64]⟩ : Shape).Idx → ℝ) (A3 : (⟨1, ![64]⟩ : Shape).Idx → ℝ) : (⟨2, ![4096, 64]⟩ : Shape).Idx → EReal :=
  fun i => ((attend (fun n j => A1 (ix3 (0 : Fin 1) n j)) (fun j k => A2 (ix2 j k)) (fun j => A3 (ix1 j))
    (fun k => A0 (ix2 (⟨(i 0).val, idx2_lt0 i⟩ : Fin 4096) k)) (⟨(i 1).val, idx2_lt1 i⟩ : Fin 64) : ℝ) : EReal)

/-! ## The constants -/

theorem ofBits_eighth : Ideal.ofBits .f32 0x3E000000#32 = ((1 / 8 : ℝ) : EReal) := by
  simp [Ideal.ofBits, Ideal.ieee, -EReal.coe_mul]; norm_num

theorem ofBits_eight : Ideal.ofBits .f32 0x41000000#32 = ((8 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem ofBits_neg_inf : Ideal.ofBits .f32 0xFF800000#32 = ⊥ := by
  simp [Ideal.ofBits, Ideal.ieee]

end Cert.Attn

end
-- ==== Proof.KernelRow.lean ====
/-
  The kernel's body at one row of a query block, at the ideal values.

  The body works on a block of 2048 query rows against the whole memory bank. Its arithmetic is row-local: entry (p, d) of
  what it stores depends on row p of the query block only. Read stage by stage at an index: the projection weights and
  bias scaled by 1/8; the projected row (a product against the transposed weights, plus the bias row repeated down the
  block); the scores (a product against the transposed bank); their exponentials; the bank with a column of ones
  appended, so that one more product yields, in columns 0..63, the unnormalised weighted sums of the bank's columns and,
  in column 64, the total mass; and the first 64 columns times the reciprocal of the last.
  When every entry read is a real number, entry (p, d) is the real number `Attn.attend` of the row.
-/
import proofs.«127425_g28106265985550_cont_9to1_1613_23_alg».proof.Proof.Gen.KernelIdeal.Skeleton
import proofs.«127425_g28106265985550_cont_9to1_1613_23_alg».proof.Proof.AttnReal
import Idealize.ShloMosaic.Lib.ValueIdx
import Idealize.ShloMosaic.Lib.Pipeline.Value
import Idealize.ShloMosaic.PureOps.Ideal.Laws

noncomputable section

namespace Cert.KernelIdeal.Row

open Cert.KernelIdeal Cert.KernelIdeal.Gen Idealize.ShloMosaic Idealize.ShloMosaic.ValueIdx
open Cert.MatAssoc (coe_sum)

/-! ## The three products read at an index -/

theorem mmA_l0 (i : S2048x64.Idx) (q : dot_S2048x64_S64x64_S2048x64_1_1_0_0_n_n.contr.Idx) : (dot_S2048x64_S64x64_S2048x64_1_1_0_0_n_n.lhsIdx i q 0).val = (i 0).val := by
  unfold DotDims.lhsIdx
  rw [dif_neg (show ¬(0 : Fin S2048x64.rank) ∈ dot_S2048x64_S64x64_S2048x64_1_1_0_0_n_n.lhsBatch by decide), dif_pos (show (0 : Fin S2048x64.rank) ∈ dot_S2048x64_S64x64_S2048x64_1_1_0_0_n_n.lhsNonContracting by decide)]
  rfl
theorem mmA_l1 (i : S2048x64.Idx) (q : dot_S2048x64_S64x64_S2048x64_1_1_0_0_n_n.contr.Idx) : (dot_S2048x64_S64x64_S2048x64_1_1_0_0_n_n.lhsIdx i q 1).val = (q ⟨0, by decide⟩).val :=
  dot_S2048x64_S64x64_S2048x64_1_1_0_0_n_n.lhsIdx_val_of_single rfl i q
theorem mmA_rn (i : S2048x64.Idx) (q : dot_S2048x64_S64x64_S2048x64_1_1_0_0_n_n.contr.Idx) : (dot_S2048x64_S64x64_S2048x64_1_1_0_0_n_n.rhsIdx i q 0).val = (i 1).val := by
  unfold DotDims.rhsIdx
  rw [dif_neg (show ¬(0 : Fin S64x64.rank) ∈ dot_S2048x64_S64x64_S2048x64_1_1_0_0_n_n.rhsBatch by decide), dif_pos (show (0 : Fin S64x64.rank) ∈ dot_S2048x64_S64x64_S2048x64_1_1_0_0_n_n.rhsNonContracting by decide)]
  rfl
theorem mmA_rc (i : S2048x64.Idx) (q : dot_S2048x64_S64x64_S2048x64_1_1_0_0_n_n.contr.Idx) : (dot_S2048x64_S64x64_S2048x64_1_1_0_0_n_n.rhsIdx i q 1).val = (q ⟨0, by decide⟩).val :=
  dot_S2048x64_S64x64_S2048x64_1_1_0_0_n_n.rhsIdx_val_of_single rfl i q

/-- A block of rows against the TRANSPOSED 64×64 weights: entry (p, c) is Σ_k l(p,k)·r(c,k). -/
theorem mmA_at (l : FVec Ideal S2048x64 .f32) (r : FVec Ideal S64x64 .f32) (p : Fin 2048) (c : Fin 64) :
    matmul (F := Ideal) dot_S2048x64_S64x64_S2048x64_1_1_0_0_n_n none l r (constant S2048x64 .f32 0x00000000#32) (ix2 p c)
      = ∑ k : Fin 64, l (ix2 p k) * r (ix2 c k) := by
  show FloatOps.matmul dot_S2048x64_S64x64_S2048x64_1_1_0_0_n_n none l r (constant S2048x64 .f32 0x00000000#32) (ix2 p c) = _
  rw [Ideal.matmul_constant_zero_apply, ← Equiv.sum_comp (contrEquiv1 dot_S2048x64_S64x64_S2048x64_1_1_0_0_n_n 64 rfl rfl).symm]
  refine Finset.sum_congr rfl fun k _ => ?_
  have hk := contrEquiv1_symm_val dot_S2048x64_S64x64_S2048x64_1_1_0_0_n_n 64 rfl rfl k
  have el : dot_S2048x64_S64x64_S2048x64_1_1_0_0_n_n.lhsIdx (ix2 p c) ((contrEquiv1 dot_S2048x64_S64x64_S2048x64_1_1_0_0_n_n 64 rfl rfl).symm k) = ix2 p k := funext fun a => Fin.ext (by
    match a with
    | ⟨0, _⟩ => exact mmA_l0 _ _
    | ⟨1, _⟩ => exact (mmA_l1 _ _).trans hk)
  have er : dot_S2048x64_S64x64_S2048x64_1_1_0_0_n_n.rhsIdx (ix2 p c) ((contrEquiv1 dot_S2048x64_S64x64_S2048x64_1_1_0_0_n_n 64 rfl rfl).symm k) = ix2 c k := funext fun a => Fin.ext (by
    match a with
    | ⟨0, _⟩ => exact mmA_rn _ _
    | ⟨1, _⟩ => exact (mmA_rc _ _).trans hk)
  rw [el, er]

theorem mmB_l0 (i : S2048x1024.Idx) (q : dot_S2048x64_S1024x64_S2048x1024_1_1_0_0_n_n.contr.Idx) : (dot_S2048x64_S1024x64_S2048x1024_1_1_0_0_n_n.lhsIdx i q 0).val = (i 0).val := by
  unfold DotDims.lhsIdx
  rw [dif_neg (show ¬(0 : Fin S2048x64.rank) ∈ dot_S2048x64_S1024x64_S2048x1024_1_1_0_0_n_n.lhsBatch by decide), dif_pos (show (0 : Fin S2048x64.rank) ∈ dot_S2048x64_S1024x64_S2048x1024_1_1_0_0_n_n.lhsNonContracting by decide)]
  rfl
theorem mmB_l1 (i : S2048x1024.Idx) (q : dot_S2048x64_S1024x64_S2048x1024_1_1_0_0_n_n.contr.Idx) : (dot_S2048x64_S1024x64_S2048x1024_1_1_0_0_n_n.lhsIdx i q 1).val = (q ⟨0, by decide⟩).val :=
  dot_S2048x64_S1024x64_S2048x1024_1_1_0_0_n_n.lhsIdx_val_of_single rfl i q
theorem mmB_rn (i : S2048x1024.Idx) (q : dot_S2048x64_S1024x64_S2048x1024_1_1_0_0_n_n.contr.Idx) : (dot_S2048x64_S1024x64_S2048x1024_1_1_0_0_n_n.rhsIdx i q 0).val = (i 1).val := by
  unfold DotDims.rhsIdx
  rw [dif_neg (show ¬(0 : Fin S1024x64.rank) ∈ dot_S2048x64_S1024x64_S2048x1024_1_1_0_0_n_n.rhsBatch by decide), dif_pos (show (0 : Fin S1024x64.rank) ∈ dot_S2048x64_S1024x64_S2048x1024_1_1_0_0_n_n.rhsNonContracting by decide)]
  rfl
theorem mmB_rc (i : S2048x1024.Idx) (q : dot_S2048x64_S1024x64_S2048x1024_1_1_0_0_n_n.contr.Idx) : (dot_S2048x64_S1024x64_S2048x1024_1_1_0_0_n_n.rhsIdx i q 1).val = (q ⟨0, by decide⟩).val :=
  dot_S2048x64_S1024x64_S2048x1024_1_1_0_0_n_n.rhsIdx_val_of_single rfl i q

/-- A block of rows against the TRANSPOSED bank: entry (p, c) is Σ_k l(p,k)·r(c,k). -/
theorem mmB_at (l : FVec Ideal S2048x64 .f32) (r : FVec Ideal S1024x64 .f32) (p : Fin 2048) (c : Fin 1024) :
    matmul (F := Ideal) dot_S2048x64_S1024x64_S2048x1024_1_1_0_0_n_n none l r (constant S2048x1024 .f32 0x00000000#32) (ix2 p c)
      = ∑ k : Fin 64, l (ix2 p k) * r (ix2 c k) := by
  show FloatOps.matmul dot_S2048x64_S1024x64_S2048x1024_1_1_0_0_n_n none l r (constant S2048x1024 .f32 0x00000000#32) (ix2 p c) = _
  rw [Ideal.matmul_constant_zero_apply, ← Equiv.sum_comp (contrEquiv1 dot_S2048x64_S1024x64_S2048x1024_1_1_0_0_n_n 64 rfl rfl).symm]
  refine Finset.sum_congr rfl fun k _ => ?_
  have hk := contrEquiv1_symm_val dot_S2048x64_S1024x64_S2048x1024_1_1_0_0_n_n 64 rfl rfl k
  have el : dot_S2048x64_S1024x64_S2048x1024_1_1_0_0_n_n.lhsIdx (ix2 p c) ((contrEquiv1 dot_S2048x64_S1024x64_S2048x1024_1_1_0_0_n_n 64 rfl rfl).symm k) = ix2 p k := funext fun a => Fin.ext (by
    match a with
    | ⟨0, _⟩ => exact mmB_l0 _ _
    | ⟨1, _⟩ => exact (mmB_l1 _ _).trans hk)
  have er : dot_S2048x64_S1024x64_S2048x1024_1_1_0_0_n_n.rhsIdx (ix2 p c) ((contrEquiv1 dot_S2048x64_S1024x64_S2048x1024_1_1_0_0_n_n 64 rfl rfl).symm k) = ix2 c k := funext fun a => Fin.ext (by
    match a with
    | ⟨0, _⟩ => exact mmB_rn _ _
    | ⟨1, _⟩ => exact (mmB_rc _ _).trans hk)
  rw [el, er]

theorem mmC_l0 (i : S2048x65.Idx) (q : dot_S2048x1024_S1024x65_S2048x65_1_0_0_1_n_n.contr.Idx) : (dot_S2048x1024_S1024x65_S2048x65_1_0_0_1_n_n.lhsIdx i q 0).val = (i 0).val := by
  unfold DotDims.lhsIdx
  rw [dif_neg (show ¬(0 : Fin S2048x1024.rank) ∈ dot_S2048x1024_S1024x65_S2048x65_1_0_0_1_n_n.lhsBatch by decide), dif_pos (show (0 : Fin S2048x1024.rank) ∈ dot_S2048x1024_S1024x65_S2048x65_1_0_0_1_n_n.lhsNonContracting by decide)]
  rfl
theorem mmC_l1 (i : S2048x65.Idx) (q : dot_S2048x1024_S1024x65_S2048x65_1_0_0_1_n_n.contr.Idx) : (dot_S2048x1024_S1024x65_S2048x65_1_0_0_1_n_n.lhsIdx i q 1).val = (q ⟨0, by decide⟩).val :=
  dot_S2048x1024_S1024x65_S2048x65_1_0_0_1_n_n.lhsIdx_val_of_single rfl i q
theorem mmC_rn (i : S2048x65.Idx) (q : dot_S2048x1024_S1024x65_S2048x65_1_0_0_1_n_n.contr.Idx) : (dot_S2048x1024_S1024x65_S2048x65_1_0_0_1_n_n.rhsIdx i q 1).val = (i 1).val := by
  unfold DotDims.rhsIdx
  rw [dif_neg (show ¬(1 : Fin S1024x65.rank) ∈ dot_S2048x1024_S1024x65_S2048x65_1_0_0_1_n_n.rhsBatch by decide), dif_pos (show (1 : Fin S1024x65.rank) ∈ dot_S2048x1024_S1024x65_S2048x65_1_0_0_1_n_n.rhsNonContracting by decide)]
  rfl
theorem mmC_rc (i : S2048x65.Idx) (q : dot_S2048x1024_S1024x65_S2048x65_1_0_0_1_n_n.contr.Idx) : (dot_S2048x1024_S1024x65_S2048x65_1_0_0_1_n_n.rhsIdx i q 0).val = (q ⟨0, by decide⟩).val :=
  dot_S2048x1024_S1024x65_S2048x65_1_0_0_1_n_n.rhsIdx_val_of_single rfl i q

/-- A block of weights against the augmented bank: entry (p, c) is Σ_k l(p,k)·r(k,c). -/
theorem mmC_at (l : FVec Ideal S2048x1024 .f32) (r : FVec Ideal S1024x65 .f32) (p : Fin 2048) (c : Fin 65) :
    matmul (F := Ideal) dot_S2048x1024_S1024x65_S2048x65_1_0_0_1_n_n none l r (constant S2048x65 .f32 0x00000000#32) (ix2 p c)
      = ∑ k : Fin 1024, l (ix2 p k) * r (ix2 k c) := by
  show FloatOps.matmul dot_S2048x1024_S1024x65_S2048x65_1_0_0_1_n_n none l r (constant S2048x65 .f32 0x00000000#32) (ix2 p c) = _
  rw [Ideal.matmul_constant_zero_apply, ← Equiv.sum_comp (contrEquiv1 dot_S2048x1024_S1024x65_S2048x65_1_0_0_1_n_n 1024 rfl rfl).symm]
  refine Finset.sum_congr rfl fun k _ => ?_
  have hk := contrEquiv1_symm_val dot_S2048x1024_S1024x65_S2048x65_1_0_0_1_n_n 1024 rfl rfl k
  have el : dot_S2048x1024_S1024x65_S2048x65_1_0_0_1_n_n.lhsIdx (ix2 p c) ((contrEquiv1 dot_S2048x1024_S1024x65_S2048x65_1_0_0_1_n_n 1024 rfl rfl).symm k) = ix2 p k := funext fun a => Fin.ext (by
    match a with
    | ⟨0, _⟩ => exact mmC_l0 _ _
    | ⟨1, _⟩ => exact (mmC_l1 _ _).trans hk)
  have er : dot_S2048x1024_S1024x65_S2048x65_1_0_0_1_n_n.rhsIdx (ix2 p c) ((contrEquiv1 dot_S2048x1024_S1024x65_S2048x65_1_0_0_1_n_n 1024 rfl rfl).symm k) = ix2 k c := funext fun a => Fin.ext (by
    match a with
    | ⟨1, _⟩ => exact mmC_rn _ _
    | ⟨0, _⟩ => exact (mmC_rc _ _).trans hk)
  rw [el, er]

/-! ## The layout operations read at an index -/

/-- Column d < 64 of a 65-column array. -/
def colL (d : Fin 64) : Fin 65 := ⟨d.val, Nat.lt_of_lt_of_le d.isLt (by decide)⟩
/-- Its last column. -/
def colR : Fin 65 := ⟨64, by decide⟩

/-- A one-row array repeated down 2048 rows. -/
theorem rowRepeat_at (v : S1x64.Idx → EReal) (p : Fin 2048) (j : Fin 64) :
    broadcastTo S2048x64 v broadcasts_S1x64_S2048x64 (ix2 p j) = v (ix2 (0 : Fin 1) j) :=
  broadcastTo_apply v broadcasts_S1x64_S2048x64 (ix2 p j) (ix2 (0 : Fin 1) j) (fun a => match a with
    | ⟨0, _⟩ => by show (0 : Nat) = if (1 : Nat) = 1 then 0 else p.val; rw [if_pos rfl]
    | ⟨1, _⟩ => by show j.val = if (64 : Nat) = 1 then 0 else j.val; rw [if_neg (by decide)])

/-- A one-column array repeated across 64 columns. -/
theorem colRepeat_at (v : S2048x1.Idx → EReal) (p : Fin 2048) (d : Fin 64) :
    broadcastTo S2048x64 v broadcasts_S2048x1_S2048x64 (ix2 p d) = v (ix2 p (0 : Fin 1)) :=
  broadcastTo_apply v broadcasts_S2048x1_S2048x64 (ix2 p d) (ix2 p (0 : Fin 1)) (fun a => match a with
    | ⟨0, _⟩ => by show p.val = if (2048 : Nat) = 1 then 0 else p.val; rw [if_neg (by decide)]
    | ⟨1, _⟩ => by show (0 : Nat) = if (1 : Nat) = 1 then 0 else d.val; rw [if_pos rfl])

/-- The last column cut out. -/
theorem lastCol_at (v : S2048x65.Idx → EReal) (p : Fin 2048) :
    extractStridedSlice S2048x1 ![0, 64] v slices_S2048x65_o0_64_S2048x1 (ix2 p (0 : Fin 1)) = v (ix2 p colR) :=
  extractStridedSlice_apply _ v slices_S2048x65_o0_64_S2048x1 (ix2 p (0 : Fin 1)) (ix2 p colR) (fun a => match a with
    | ⟨0, _⟩ => by show p.val = 0 + p.val; omega
    | ⟨1, _⟩ => by show (64 : Nat) = 64 + 0; rfl)

/-- The first 64 columns cut out. -/
theorem firstCols_at (v : S2048x65.Idx → EReal) (p : Fin 2048) (d : Fin 64) :
    extractStridedSlice S2048x64 ![0, 0] v slices_S2048x65_o0_0_S2048x64 (ix2 p d) = v (ix2 p (colL d)) :=
  extractStridedSlice_apply _ v slices_S2048x65_o0_0_S2048x64 (ix2 p d) (ix2 p (colL d)) (fun a => match a with
    | ⟨0, _⟩ => by show p.val = 0 + p.val; omega
    | ⟨1, _⟩ => by show d.val = 0 + d.val; omega)

/-- The bank with a column appended, read in the bank's columns. -/
theorem appended_left (v : S1024x64.Idx → EReal) (u : S1024x1.Idx → EReal) (n : Fin 1024) (d : Fin 64) :
    concatenate S1024x65 1 [⟨S1024x64, v⟩, ⟨S1024x1, u⟩] concatenates_S1024x64_S1024x1_S1024x65_d1 (ix2 n (colL d)) = v (ix2 n d) :=
  concatenate_pair_apply_left (1 : Fin S1024x65.rank) v u concatenates_S1024x64_S1024x1_S1024x65_d1 (ix2 n (colL d)) rfl (ix2 n d)
    (fun b => match b with
      | ⟨0, _⟩ => rfl
      | ⟨1, _⟩ => rfl)

/-- The bank with a column appended, read in the appended column. -/
theorem appended_right (v : S1024x64.Idx → EReal) (u : S1024x1.Idx → EReal) (n : Fin 1024) :
    concatenate S1024x65 1 [⟨S1024x64, v⟩, ⟨S1024x1, u⟩] concatenates_S1024x64_S1024x1_S1024x65_d1 (ix2 n colR) = u (ix2 n (0 : Fin 1)) :=
  concatenate_pair_apply_right (1 : Fin S1024x65.rank) v u concatenates_S1024x64_S1024x1_S1024x65_d1 (ix2 n colR) rfl rfl (ix2 n (0 : Fin 1))
    (fun b => match b with
      | ⟨0, _⟩ => fun _ => rfl
      | ⟨1, _⟩ => fun h => absurd rfl h)
    rfl

/-! ## The body's stages -/

variable (x0 : FVec Ideal S2048x64 .f32) (x1 : FVec Ideal S1024x64 .f32) (x3 : FVec Ideal S64x64 .f32) (x6 : FVec Ideal S1x64 .f32)

/-- The weights scaled by 1/8. -/
def wS : FVec Ideal S64x64 .f32 := mulf x3 (broadcast S64x64 (Scalar.ofBits .f32 0x3E000000#32))
/-- The bias row scaled by 1/8. -/
def bS : FVec Ideal S1x64 .f32 := mulf (shapeCast S1x64 x6 shapeCasts_S1x64_S1x64) (broadcast S1x64 (Scalar.ofBits .f32 0x3E000000#32))
/-- The projected rows. -/
def qS : FVec Ideal S2048x64 .f32 :=
  addf (matmul dot_S2048x64_S64x64_S2048x64_1_1_0_0_n_n none x0 (wS x3) (constant S2048x64 .f32 0x00000000#32)) (broadcastTo S2048x64 (bS x6) broadcasts_S1x64_S2048x64)
/-- The scores. -/
def sS : FVec Ideal S2048x1024 .f32 :=
  matmul dot_S2048x64_S1024x64_S2048x1024_1_1_0_0_n_n none (qS x0 x3 x6) (shapeCast S1024x64 x1 shapeCasts_S1024x64_S1024x64) (constant S2048x1024 .f32 0x00000000#32)
/-- The bank with a column of ones appended. -/
def augS : FVec Ideal S1024x65 .f32 :=
  concatenate S1024x65 1 [⟨S1024x64, shapeCast S1024x64 x1 shapeCasts_S1024x64_S1024x64⟩, ⟨S1024x1, broadcast S1024x1 (Scalar.ofBits .f32 0x3F800000#32)⟩] concatenates_S1024x64_S1024x1_S1024x65_d1
/-- The unnormalised weighted sums, and the mass in the last column. -/
def accS : FVec Ideal S2048x65 .f32 :=
  matmul dot_S2048x1024_S1024x65_S2048x65_1_0_0_1_n_n none (exp (sS x0 x1 x3 x6)) (augS x1) (constant S2048x65 .f32 0x00000000#32)

/-- The body's payload is these stages composed. -/
theorem pay_eq : k0_pay1 (F := Ideal) x0 x1 x3 x6
    = mulf (extractStridedSlice S2048x64 ![0, 0] (accS x0 x1 x3 x6) slices_S2048x65_o0_0_S2048x64)
        (broadcastTo S2048x64 (divf (broadcast S2048x1 (Scalar.ofBits .f32 0x3F800000#32))
          (extractStridedSlice S2048x1 ![0, 64] (accS x0 x1 x3 x6) slices_S2048x65_o0_64_S2048x1)) broadcasts_S2048x1_S2048x64) := rfl

variable (p : Fin 2048) (X : Fin 64 → ℝ) (M : Fin 1024 → Fin 64 → ℝ) (W : Fin 64 → Fin 64 → ℝ) (B : Fin 64 → ℝ)
variable (h0 : ∀ k, x0 (ix2 p k) = (X k : EReal)) (h1 : ∀ n j, x1 (ix2 n j) = (M n j : EReal))
  (h3 : ∀ j k, x3 (ix2 j k) = (W j k : EReal)) (h6 : ∀ j, x6 (ix2 (0 : Fin 1) j) = (B j : EReal))

include h3 in
theorem wS_at (j k : Fin 64) : wS x3 (ix2 j k) = ((W j k * (1 / 8) : ℝ) : EReal) := by
  show x3 (ix2 j k) * Ideal.ofBits .f32 0x3E000000#32 = _
  rw [h3, Attn.ofBits_eighth, ← EReal.coe_mul]

include h6 in
theorem bS_at (j : Fin 64) : bS x6 (ix2 (0 : Fin 1) j) = ((B j * (1 / 8) : ℝ) : EReal) := by
  unfold bS
  rw [shapeCast_self]
  show x6 (ix2 (0 : Fin 1) j) * Ideal.ofBits .f32 0x3E000000#32 = _
  rw [h6, Attn.ofBits_eighth, ← EReal.coe_mul]

include h0 h3 h6 in
theorem qS_at (j : Fin 64) :
    qS x0 x3 x6 (ix2 p j) = ((∑ k, X k * (W j k * (1 / 8)) + B j * (1 / 8) : ℝ) : EReal) := by
  unfold qS
  rw [addf_apply, mmA_at, rowRepeat_at, bS_at x6 B h6]
  simp only [h0, wS_at x3 W h3, ← EReal.coe_mul, ← coe_sum, ← EReal.coe_add]

include h0 h1 h3 h6 in
theorem sS_at (n : Fin 1024) : sS x0 x1 x3 x6 (ix2 p n) = ((Attn.score M W B X n : ℝ) : EReal) := by
  unfold sS
  rw [mmB_at, shapeCast_self]
  simp only [qS_at x0 x3 x6 p X W B h0 h3 h6, h1, ← EReal.coe_mul, ← coe_sum]
  rw [Attn.scaled_score]

include h1 in
theorem augS_left (n : Fin 1024) (d : Fin 64) : augS x1 (ix2 n (colL d)) = (M n d : EReal) := by
  unfold augS
  rw [appended_left, shapeCast_self, h1]

theorem augS_right (n : Fin 1024) : augS x1 (ix2 n colR) = ((1 : ℝ) : EReal) := by
  unfold augS
  rw [appended_right]
  show Ideal.ofBits .f32 0x3F800000#32 = _
  exact Attn.ofBits_one

include h0 h1 h3 h6 in
theorem exp_at (n : Fin 1024) : exp (sS x0 x1 x3 x6) (ix2 p n) = ((Real.exp (Attn.score M W B X n) : ℝ) : EReal) := by
  show Ideal.exp (sS x0 x1 x3 x6 (ix2 p n)) = _
  rw [sS_at x0 x1 x3 x6 p X M W B h0 h1 h3 h6]
  rfl

include h0 h1 h3 h6 in
theorem accS_left (d : Fin 64) :
    accS x0 x1 x3 x6 (ix2 p (colL d)) = ((∑ n, Real.exp (Attn.score M W B X n) * M n d : ℝ) : EReal) := by
  unfold accS
  rw [mmC_at]
  simp only [exp_at x0 x1 x3 x6 p X M W B h0 h1 h3 h6, augS_left x1 M h1, ← EReal.coe_mul, ← coe_sum]

include h0 h1 h3 h6 in
theorem accS_right :
    accS x0 x1 x3 x6 (ix2 p colR) = ((∑ n, Real.exp (Attn.score M W B X n) : ℝ) : EReal) := by
  unfold accS
  rw [mmC_at]
  simp only [exp_at x0 x1 x3 x6 p X M W B h0 h1 h3 h6, augS_right x1, ← EReal.coe_mul, ← coe_sum, mul_one]

include h0 h1 h3 h6 in
/-- ENTRY (p, d) OF WHAT THE BODY STORES, when row p of the query block, the bank, the weights and the bias are real:
    the row's attention answer. -/
theorem pay_at (d : Fin 64) : k0_pay1 (F := Ideal) x0 x1 x3 x6 (ix2 p d) = ((Attn.attend M W B X d : ℝ) : EReal) := by
  rw [pay_eq, mulf_apply, firstCols_at, colRepeat_at, divf_apply, lastCol_at,
    accS_left x0 x1 x3 x6 p X M W B h0 h1 h3 h6, accS_right x0 x1 x3 x6 p X M W B h0 h1 h3 h6]
  show _ * Ideal.div (Ideal.ofBits .f32 0x3F800000#32) _ = _
  have hne : (∑ n, Real.exp (Attn.score M W B X n)) ≠ 0 := (Attn.mass_pos M W B X).ne'
  rw [Attn.ofBits_one, Ideal.div_coe hne, ← EReal.coe_mul, ← EReal.coe_mul, one_mul, Attn.times_reciprocal]

end Cert.KernelIdeal.Row

end
-- ==== Proof.KernelArray.lean ====
/-
  From blocks to the whole array: what the kernel leaves in its result.

  The grid has two points; point t stages rows 2048·t … 2048·t + 2047 of the queries, the whole bank, the whole weights
  and the whole bias row, and writes back rows 2048·t … 2048·t + 2047 of the result. The bank and the bias row the region
  finds are the host's reshapes of the arguments [1,1024,64] → [1024,64] and [64] → [1,64]. Since the body is row-local,
  what point t writes back is block t of ONE whole-array function of the arguments (`Attn.outArray`), provided every
  entry of the arguments is a real number; the two blocks cover the result, so after the run the result IS that function.
-/
import proofs.«127425_g28106265985550_cont_9to1_1613_23_alg».proof.Proof.Gen.KernelIdeal.Value
import proofs.«127425_g28106265985550_cont_9to1_1613_23_alg».proof.Proof.KernelRow
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-! ## The arrays the region finds -/

/-- The bank the region finds is the argument reshaped. -/
theorem bank_found (c : Dev nD) : (V m c main_call0_v0 : S1024x64.Idx → EReal)
    = shapeCast S1024x64 (m ((c : Thread nD τ).loc main_arg1)) shapeCasts_S1x1024x64_S1024x64 := by
  dsimp only [Gen.V, Gen.hostOps0]; after_results; rfl

/-- The bias row the region finds is the argument reshaped. -/
theorem bias_found (c : Dev nD) : (V m c main_call0_v1 : S1x64.Idx → EReal)
    = shapeCast S1x64 (m ((c : Thread nD τ).loc main_arg3)) shapeCasts_S64_S1x64 := by
  dsimp only [Gen.V, Gen.hostOps0]; after_results; rfl

theorem bank_at (c : Dev nD) (n : Fin 1024) (j : Fin 64) :
    V m c main_call0_v0 (ix2 n j) = m ((c : Thread nD τ).loc main_arg1) (ix3 (0 : Fin 1) n j) := by
  rw [bank_found]
  exact shapeCast_apply _ shapeCasts_S1x1024x64_S1024x64 (ix2 n j) (ix3 (0 : Fin 1) n j)
    (by rewrite [Shape.rowMajor_val_three, Shape.rowMajor_val_two]; show (0 * 1024 + n.val) * 64 + j.val = n.val * 64 + j.val; omega)

theorem bias_at (c : Dev nD) (j : Fin 64) :
    V m c main_call0_v1 (ix2 (0 : Fin 1) j) = m ((c : Thread nD τ).loc main_arg3) (ix1 j) := by
  rw [bias_found]
  exact shapeCast_apply _ shapeCasts_S64_S1x64 (ix2 (0 : Fin 1) j) (ix1 j)
    (by rewrite [Shape.rowMajor_val_one, Shape.rowMajor_val_two]; show j.val = 0 * 64 + j.val; omega)

/-! ## The index maps, decided over the two grid points -/

theorem index_facts : ∀ t : Fin cfg0.N, win0_0.index t (0 : Fin 2) = win0_4.index t (0 : Fin 2)
    ∧ win0_0.index t (1 : Fin 2) = 0 ∧ win0_4.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) ≤ 1 :=
  (by decide +kernel : ∀ t : Fin grid0.N, _)

theorem index_onto : ∀ q0 : Fin 2, ∃ t : Fin cfg0.N, win0_4.index t = ![q0.val, 0] :=
  (by decide +kernel : ∀ q0 : Fin 2, ∃ t : Fin grid0.N, win0_4.index t = ![q0.val, 0])

variable (A0 : Dev nD → S4096x64.Idx → ℝ) (A1 : Dev nD → S1x1024x64.Idx → ℝ) (A2 : Dev nD → S64x64.Idx → ℝ) (A3 : Dev nD → S64.Idx → ℝ)
variable (h0 : ∀ (c : Dev nD) (i : S4096x64.Idx), m ((c : Thread nD τ).loc main_arg0) i = (A0 c i : EReal))
  (h1 : ∀ (c : Dev nD) (i : S1x1024x64.Idx), m ((c : Thread nD τ).loc main_arg1) i = (A1 c i : EReal))
  (h2 : ∀ (c : Dev nD) (i : S64x64.Idx), m ((c : Thread nD τ).loc main_arg2) i = (A2 c i : EReal))
  (h3 : ∀ (c : Dev nD) (i : S64.Idx), m ((c : Thread nD τ).loc main_arg3) i = (A3 c i : EReal))

include h0 h1 h2 h3 in
/-- WHAT POINT t WRITES BACK is block t of the whole-array function. -/
theorem flushed_eq (c : Dev nD) (t : Fin cfg0.N) :
    (dats m 0 c).flushed 4 t = ((cfg0.win 4).blk t).view.read (Elt Ideal) (Attn.outArray (A0 c) (A1 c) (A2 c) (A3 c)) := by
  show (cfg0.win 4).cut (grid0.coords t) ((dats m 0 c).after 4 t) = _
  rw [after0_4]
  unfold out0_4
  rw [View.canon_unit_zero origin]
  simp only [View.ld_unit_zero (S := S2048x64) origin, View.ld_unit_zero (S := S1024x64) origin,
    View.ld_unit_zero (S := S64x64) origin, View.ld_unit_zero (S := S1x64) origin]
  obtain ⟨e0, e1, e2, e3, e4, e5, e6, e7, e8, e9⟩ := index_facts t
  funext y
  obtain ⟨p, d, rfl⟩ : ∃ (p : Fin 2048) (d : Fin 64), y = ix2 p d := ⟨y 0, y 1, eq_ix2 (n0 := 2048) (n1 := 64) y⟩
  show k0_pay1 (F := Ideal) (iblk m c 0 t) (iblk m c 1 t) (iblk m c 2 t) (iblk m c 3 t) (ix2 p d)
    = Attn.outArray (A0 c) (A1 c) (A2 c) (A3 c) (((cfg0.win 4).blk t).view.emb (ix2 p d))
  have hp : p.val < 2048 := p.isLt
  have hrow : win0_4.index t (0 : Fin 2) * 2048 + 1 * p.val < 4096 := by omega
  refine (Row.pay_at (iblk m c 0 t) (iblk m c 1 t) (iblk m c 2 t) (iblk m c 3 t) p
    (fun k => A0 c (ix2 (⟨win0_4.index t (0 : Fin 2) * 2048 + 1 * p.val, hrow⟩ : Fin 4096) k))
    (fun n j => A1 c (ix3 (0 : Fin 1) n j)) (fun j k => A2 c (ix2 j k)) (fun j => A3 c (ix1 j)) ?_ ?_ ?_ ?_ d).trans ?_
  · intro k
    show V m c main_arg0 (((cfg0.win 0).blk t).view.emb (ix2 p k)) = _
    rw [V_main_arg0, h0]
    refine congrArg (fun z => ((A0 c z : ℝ) : EReal)) (funext fun a => Fin.ext ?_)
    match a with
    | ⟨0, _⟩ => show win0_0.index t (0 : Fin 2) * 2048 + 1 * p.val = win0_4.index t (0 : Fin 2) * 2048 + 1 * p.val; omega
    | ⟨1, _⟩ => show win0_0.index t (1 : Fin 2) * 64 + 1 * k.val = k.val; omega
  · intro n j
    show V m c main_call0_v0 (((cfg0.win 1).blk t).view.emb (ix2 n j)) = _
    have e : ((cfg0.win 1).blk t).view.emb (ix2 n j) = ix2 n j := funext fun a => Fin.ext (by
      match a with
      | ⟨0, _⟩ => show win0_1.index t (0 : Fin 2) * 1024 + 1 * n.val = n.val; omega
      | ⟨1, _⟩ => show win0_1.index t (1 : Fin 2) * 64 + 1 * j.val = j.val; omega)
    rw [e, bank_at, h1]
  · intro j k
    show V m c main_arg2 (((cfg0.win 2).blk t).view.emb (ix2 j k)) = _
    have e : ((cfg0.win 2).blk t).view.emb (ix2 j k) = ix2 j k := funext fun a => Fin.ext (by
      match a with
      | ⟨0, _⟩ => show win0_2.index t (0 : Fin 2) * 64 + 1 * j.val = j.val; omega
      | ⟨1, _⟩ => show win0_2.index t (1 : Fin 2) * 64 + 1 * k.val = k.val; omega)
    rw [e, V_main_arg2, h2]
  · intro j
    show V m c main_call0_v1 (((cfg0.win 3).blk t).view.emb (ix2 (0 : Fin 1) j)) = _
    have e : ((cfg0.win 3).blk t).view.emb (ix2 (0 : Fin 1) j) = ix2 (0 : Fin 1) j := funext fun a => Fin.ext (by
      match a with
      | ⟨0, _⟩ => show win0_3.index t (0 : Fin 2) * 1 + 1 * 0 = 0; omega
      | ⟨1, _⟩ => show win0_3.index t (1 : Fin 2) * 64 + 1 * j.val = j.val; omega)
    rw [e, bias_at, h3]
  · unfold Attn.outArray
    refine congrArg (fun z : ℝ => (z : EReal)) ?_
    have ed : (⟨((((cfg0.win 4).blk t).view.emb (ix2 p d)) 1).val, idx2_lt1 _⟩ : Fin 64) = d := Fin.ext (by
      show win0_4.index t (1 : Fin 2) * 64 + 1 * d.val = d.val; omega)
    rw [ed]
    rfl

/-- An index of the result is in point t's block iff each coordinate is in the block's range on its axis. -/
theorem mem_blk (t : Fin cfg0.N) (i : S4096x64.Idx) :
    i ∈ ((cfg0.win 4).blk t).view.set ↔ ∀ a : Fin 2, win0_4.index t a * S2048x64.size a ≤ (i a).val ∧ (i a).val < win0_4.index t a * S2048x64.size a + S2048x64.size a := by
  show i ∈ ((View.whole main_v0).slice (win0_4.rect t)).set ↔ _
  rw [View.set_slice_whole, Rect.mem_set_unit]
  exact Iff.rfl

/-- The two blocks cover the result: row r lies in the block of point r / 2048. -/
theorem cover (i : S4096x64.Idx) : ∃ t : Fin cfg0.N, (cfg0.win 4).flush t = true ∧ i ∈ ((cfg0.win 4).blk t).view.set := by
  have hi0 : (i 0).val < 4096 := (i 0).isLt
  have hi1 : (i 1).val < 64 := (i 1).isLt
  obtain ⟨t, ht⟩ := index_onto ⟨(i 0).val / 2048, by omega⟩
  have q0 : win0_4.index t (0 : Fin 2) = (i 0).val / 2048 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 2048 ≤ (i 0).val ∧ (i 0).val < win0_4.index t (0 : Fin 2) * 2048 + 2048; omega
  | ⟨1, _⟩ => show win0_4.index t (1 : Fin 2) * 64 ≤ (i 1).val ∧ (i 1).val < win0_4.index t (1 : Fin 2) * 64 + 64; omega

include h0 h1 h2 h3 in
/-- THE RESULT after the run is the whole-array function of the arguments. -/
theorem final (c : Dev nD) : (dats m 0 c).arrAt 4 cfg0.N = Attn.outArray (A0 c) (A1 c) (A2 c) (A3 c) :=
  (dats m 0 c).arrAt_eq_of_cover 4 (Attn.outArray (A0 c) (A1 c) (A2 c) (A3 c))
    (fun t _ => flushed_eq m A0 A1 A2 A3 h0 h1 h2 h3 c t) cover

include h0 h1 h2 h3 in
/-- The kernel's run: the result at the whole-array function, the arguments unchanged. -/
theorem run : θ_run defs (onTc (τ := τ) (main (F := Ideal))) ⟨m, fun _ => 0, ρ⟩ fun r => ∀ c : Dev nD,
      r.2.mem ((c : Thread nD τ).loc main_v0) = Attn.outArray (A0 c) (A1 c) (A2 c) (A3 c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m A0 A1 A2 A3 h0 h1 h2 h3 c), (h c).2⟩)
    (Value.run_blocks m ρ)

end Cert.KernelIdeal.Whole

end
-- ==== Proof.RefAtIndex.lean ====
/-
  The reference at one index of its result, at the ideal values.

  The reference projects every query row (a product against the transposed weights plus the bias repeated down the
  rows), scores it against the transposed bank and divides by 8, subtracts the row's largest score (a maximum folded
  from −∞ over the 1024 scores), exponentiates, divides each weight by the row's sum of weights, and multiplies the
  normalised weights into the bank. Read stage by stage at an index, with every argument entry a real number: each stage's
  entry is the coercion of a real; the row maximum is a real because it is a maximum of 1024 reals; and entry (b, d) of
  the result is the attention answer of query row b at column d (`Attn.shifted_normalised`, whatever the maximum is).
-/
import proofs.«127425_g28106265985550_cont_9to1_1613_23_alg».proof.Proof.Gen.ReferenceIdeal.Read
import proofs.«127425_g28106265985550_cont_9to1_1613_23_alg».proof.Proof.AttnReal
import Idealize.ShloMosaic.PureOps.Reduce

noncomputable section

namespace Cert.ReferenceIdeal.AtIndex

open Cert.ReferenceIdeal Cert.ReferenceIdeal.Gen Cert.ReferenceIdeal.Read Idealize.ShloMosaic Idealize.ShloMosaic.ValueIdx
open Cert.MatAssoc (coe_sum)

variable (x0 : (⟨S4096x64, .f32⟩ : BufTy).Contents (Elt Ideal)) (x1 : (⟨S1x1024x64, .f32⟩ : BufTy).Contents (Elt Ideal))
  (x2 : (⟨S64x64, .f32⟩ : BufTy).Contents (Elt Ideal)) (x3 : (⟨S64, .f32⟩ : BufTy).Contents (Elt Ideal))
variable (A0 : S4096x64.Idx → ℝ) (A1 : S1x1024x64.Idx → ℝ) (A2 : S64x64.Idx → ℝ) (A3 : S64.Idx → ℝ)
variable (h0 : ∀ i, x0 i = (A0 i : EReal)) (h1 : ∀ i, x1 i = (A1 i : EReal)) (h2 : ∀ i, x2 i = (A2 i : EReal))
  (h3 : ∀ i, x3 i = (A3 i : EReal))

include h0 h1 h2 h3 in
/-- The product of query row b against the transposed weights. -/
theorem v1_at (b : Fin 4096) (j : Fin 64) :
    val_main_v1 (F := Ideal) x0 x2 (ix2 b j) = ((∑ k, A0 (ix2 b k) * A2 (ix2 j k) : ℝ) : EReal) := by
  rw [val_main_v1_apply]
  have hl : ∀ k : Fin 64, lidx_main_v1 (ix2 b j) k = ix2 b k := fun k => funext fun a => Fin.ext (by
    match a with | ⟨0, _⟩ => rfl | ⟨1, _⟩ => rfl)
  have hr : ∀ k : Fin 64, idx_main_v0 (ridx_main_v1 (ix2 b j) k) = ix2 j k := fun k => funext fun a => Fin.ext (by
    match a with | ⟨0, _⟩ => rfl | ⟨1, _⟩ => rfl)
  simp only [val_main_v0_apply, hl, hr, h0, h2, ← EReal.coe_mul, ← coe_sum]

include h0 h1 h2 h3 in
/-- The projected row. -/
theorem v4_at (b : Fin 4096) (j : Fin 64) :
    val_main_v4 (F := Ideal) x0 x2 x3 (ix2 b j) = ((Attn.proj (fun j k => A2 (ix2 j k)) (fun j => A3 (ix1 j)) (fun k => A0 (ix2 b k)) j : ℝ) : EReal) := by
  rw [val_main_v4_apply, v1_at x0 x1 x2 x3 A0 A1 A2 A3 h0 h1 h2 h3, val_main_v3_apply, val_main_v2_apply]
  have e : idx_main_v2 (idx_main_v3 (ix2 b j)) = ix1 j := funext fun a => Fin.ext (by
    match a with | ⟨0, _⟩ => rfl)
  rw [e, h3]
  show ((_ : ℝ) : EReal) + ((_ : ℝ) : EReal) = _
  rw [← EReal.coe_add]
  rfl

include h0 h1 h2 h3 in
/-- The bank, the argument reshaped. -/
theorem v5_at (n : Fin 1024) (j : Fin 64) :
    val_main_v5 (F := Ideal) x1 (ix2 n j) = ((A1 (ix3 (0 : Fin 1) n j) : ℝ) : EReal) := by
  rw [val_main_v5_apply]
  have e : idx_main_v5 (ix2 n j) = ix3 (0 : Fin 1) n j := funext fun a => Fin.ext (by
    have hn := n.isLt; have hj := j.isLt
    match a with
    | ⟨0, _⟩ => rfl
    | ⟨1, _⟩ => show (n.val * 64 + j.val) / 64 % 1024 = n.val; omega
    | ⟨2, _⟩ => show (n.val * 64 + j.val) % 64 = j.val; omega)
  rw [e, h1]

include h0 h1 h2 h3 in
/-- The unscaled scores. -/
theorem v7_at (b : Fin 4096) (n : Fin 1024) :
    val_main_v7 (F := Ideal) x0 x1 x2 x3 (ix2 b n)
      = ((∑ j, Attn.proj (fun j k => A2 (ix2 j k)) (fun j => A3 (ix1 j)) (fun k => A0 (ix2 b k)) j * A1 (ix3 (0 : Fin 1) n j) : ℝ) : EReal) := by
  rw [val_main_v7_apply]
  have hl : ∀ k : Fin 64, lidx_main_v7 (ix2 b n) k = ix2 b k := fun k => funext fun a => Fin.ext (by
    match a with | ⟨0, _⟩ => rfl | ⟨1, _⟩ => rfl)
  have hr : ∀ k : Fin 64, idx_main_v6 (ridx_main_v7 (ix2 b n) k) = ix2 n k := fun k => funext fun a => Fin.ext (by
    match a with | ⟨0, _⟩ => rfl | ⟨1, _⟩ => rfl)
  simp only [val_main_v6_apply, hl, hr, v4_at x0 x1 x2 x3 A0 A1 A2 A3 h0 h1 h2 h3, v5_at x0 x1 x2 x3 A0 A1 A2 A3 h0 h1 h2 h3, ← EReal.coe_mul, ← coe_sum]

include h0 h1 h2 h3 in
/-- The scores. -/
theorem v9_at (b : Fin 4096) (n : Fin 1024) :
    val_main_v9 (F := Ideal) x0 x1 x2 x3 (ix2 b n) = ((Attn.score (fun n j => A1 (ix3 (0 : Fin 1) n j)) (fun j k => A2 (ix2 j k)) (fun j => A3 (ix1 j)) (fun k => A0 (ix2 b k)) n : ℝ) : EReal) := by
  rw [val_main_v9_apply, v7_at x0 x1 x2 x3 A0 A1 A2 A3 h0 h1 h2 h3, val_main_v8_apply, val_main_cst_apply]
  show Ideal.div _ (Ideal.ofBits .f32 0x41000000#32) = _
  rw [Attn.ofBits_eight, Ideal.div_coe (by norm_num : (8 : ℝ) ≠ 0), ← EReal.coe_mul, mul_one_div]
  rfl

include h0 h1 h2 h3 in
/-- The row's largest score is a real. -/
theorem v12_real (b : Fin 4096) : ∃ mb : ℝ, val_main_v12 (F := Ideal) x0 x1 x2 x3 (ix1 b) = (mb : EReal) := by
  have hred : S4096x1024.Reduces [1] S4096 := by decide
  obtain ⟨r, hr⟩ : ∃ r : ℝ, val_main_v10 (F := Ideal) x0 x1 x2 x3 (ix1 b) = (r : EReal) := by
    unfold val_main_v10
    rw [Host.reduce_eq_fold_single FloatOps.maximumf _ _ reducesTo_S4096x1024_S4096_d1 hred h_S_]
    have hb : val_main_cst_0 (F := Ideal) (Shape.Idx.first h_S_) = ⊥ := Attn.ofBits_neg_inf
    rw [hb]
    refine Attn.fold_max_real (by decide) _ (fun k => ?_)
    obtain ⟨b', n', e⟩ : ∃ (b' : Fin 4096) (n' : Fin 1024), hred.lift (ix1 b) k = ix2 b' n' :=
      ⟨_, _, eq_ix2 (n0 := 4096) (n1 := 1024) _⟩
    show ∃ r : ℝ, val_main_v9 (F := Ideal) x0 x1 x2 x3 (hred.lift (ix1 b) k) = (r : EReal)
    rw [e]
    exact ⟨_, v9_at x0 x1 x2 x3 A0 A1 A2 A3 h0 h1 h2 h3 b' n'⟩
  refine ⟨r, ?_⟩
  rw [val_main_v12_apply, val_main_v11_apply, val_main_cst_1_apply, hr]
  show max (Ideal.ofBits .f32 0xFF800000#32) _ = _
  rw [Attn.ofBits_neg_inf]
  exact max_eq_right bot_le

include h0 h1 h2 h3 in
/-- The shifted scores, exponentiated. -/
theorem v16_at (b : Fin 4096) (mb : ℝ) (hmb : val_main_v12 (F := Ideal) x0 x1 x2 x3 (ix1 b) = (mb : EReal)) (n : Fin 1024) :
    val_main_v16 (F := Ideal) x0 x1 x2 x3 (ix2 b n) = ((Real.exp (Attn.score (fun n j => A1 (ix3 (0 : Fin 1) n j)) (fun j k => A2 (ix2 j k)) (fun j => A3 (ix1 j)) (fun k => A0 (ix2 b k)) n - mb) : ℝ) : EReal) := by
  rw [val_main_v16_apply, val_main_v15_apply, v9_at x0 x1 x2 x3 A0 A1 A2 A3 h0 h1 h2 h3, val_main_v14_apply, val_main_v13_apply]
  have e : idx_main_v13 (idx_main_v14 (ix2 b n)) = ix1 b := funext fun a => Fin.ext (by
    match a with | ⟨0, _⟩ => rfl)
  rw [e, hmb]
  show Ideal.exp (((_ : ℝ) : EReal) - ((_ : ℝ) : EReal)) = _
  rw [← EReal.coe_sub]
  rfl

include h0 h1 h2 h3 in
/-- The row's sum of weights. -/
theorem v17_at (b : Fin 4096) (mb : ℝ) (hmb : val_main_v12 (F := Ideal) x0 x1 x2 x3 (ix1 b) = (mb : EReal)) :
    val_main_v17 (F := Ideal) x0 x1 x2 x3 (ix1 b) = ((∑ n, Real.exp (Attn.score (fun n j => A1 (ix3 (0 : Fin 1) n j)) (fun j k => A2 (ix2 j k)) (fun j => A3 (ix1 j)) (fun k => A0 (ix2 b k)) n - mb) : ℝ) : EReal) := by
  rw [val_main_v17_apply]
  have hi : ∀ k : Fin 1024, idx_main_v17 (ix1 b) k = ix2 b k := fun k => funext fun a => Fin.ext (by
    match a with | ⟨0, _⟩ => rfl | ⟨1, _⟩ => rfl)
  simp only [hi, v16_at x0 x1 x2 x3 A0 A1 A2 A3 h0 h1 h2 h3 b mb hmb, ← coe_sum]
  show Ideal.ofBits .f32 0x00000000#32 + _ = _
  rw [Ideal.ofBits_zero_f32, zero_add]

include h0 h1 h2 h3 in
/-- The normalised weights. -/
theorem v20_at (b : Fin 4096) (mb : ℝ) (hmb : val_main_v12 (F := Ideal) x0 x1 x2 x3 (ix1 b) = (mb : EReal)) (n : Fin 1024) :
    val_main_v20 (F := Ideal) x0 x1 x2 x3 (ix2 b n)
      = ((Real.exp (Attn.score (fun n j => A1 (ix3 (0 : Fin 1) n j)) (fun j k => A2 (ix2 j k)) (fun j => A3 (ix1 j)) (fun k => A0 (ix2 b k)) n - mb) * (1 / ∑ n', Real.exp (Attn.score (fun n j => A1 (ix3 (0 : Fin 1) n j)) (fun j k => A2 (ix2 j k)) (fun j => A3 (ix1 j)) (fun k => A0 (ix2 b k)) n' - mb)) : ℝ) : EReal) := by
  rw [val_main_v20_apply, v16_at x0 x1 x2 x3 A0 A1 A2 A3 h0 h1 h2 h3 b mb hmb, val_main_v19_apply, val_main_v18_apply]
  have e : idx_main_v18 (idx_main_v19 (ix2 b n)) = ix1 b := funext fun a => Fin.ext (by
    match a with | ⟨0, _⟩ => rfl)
  rw [e, v17_at x0 x1 x2 x3 A0 A1 A2 A3 h0 h1 h2 h3 b mb hmb]
  show Ideal.div _ _ = _
  rw [Ideal.div_coe (Attn.shifted_mass_ne (fun n j => A1 (ix3 (0 : Fin 1) n j)) (fun j k => A2 (ix2 j k)) (fun j => A3 (ix1 j)) (fun k => A0 (ix2 b k)) mb), ← EReal.coe_mul]

include h0 h1 h2 h3 in
/-- ENTRY (b, d) OF THE REFERENCE'S RESULT: the attention answer of query row b at column d. -/
theorem v21_at (b : Fin 4096) (d : Fin 64) :
    val_main_v21 (F := Ideal) x0 x1 x2 x3 (ix2 b d) = ((Attn.attend (fun n j => A1 (ix3 (0 : Fin 1) n j)) (fun j k => A2 (ix2 j k)) (fun j => A3 (ix1 j)) (fun k => A0 (ix2 b k)) d : ℝ) : EReal) := by
  obtain ⟨mb, hmb⟩ := v12_real x0 x1 x2 x3 A0 A1 A2 A3 h0 h1 h2 h3 b
  rw [val_main_v21_apply]
  have hl : ∀ k : Fin 1024, lidx_main_v21 (ix2 b d) k = ix2 b k := fun k => funext fun a => Fin.ext (by
    match a with | ⟨0, _⟩ => rfl | ⟨1, _⟩ => rfl)
  have hr : ∀ k : Fin 1024, ridx_main_v21 (ix2 b d) k = ix2 k d := fun k => funext fun a => Fin.ext (by
    match a with | ⟨0, _⟩ => rfl | ⟨1, _⟩ => rfl)
  simp only [hl, hr, v20_at x0 x1 x2 x3 A0 A1 A2 A3 h0 h1 h2 h3 b mb hmb, v5_at x0 x1 x2 x3 A0 A1 A2 A3 h0 h1 h2 h3, ← EReal.coe_mul, ← coe_sum]
  rw [Attn.shifted_normalised]

include h0 h1 h2 h3 in
/-- THE REFERENCE'S RESULT is the whole-array function of the arguments. -/
theorem result_eq : val_main_v21 (F := Ideal) x0 x1 x2 x3 = Attn.outArray A0 A1 A2 A3 := by
  funext i
  obtain ⟨b, d, rfl⟩ : ∃ (b : Fin 4096) (d : Fin 64), i = ix2 b d := ⟨i 0, i 1, eq_ix2 (n0 := 4096) (n1 := 64) i⟩
  rw [v21_at x0 x1 x2 x3 A0 A1 A2 A3 h0 h1 h2 h3]
  rfl

end Cert.ReferenceIdeal.AtIndex

end
-- ==== Proof.Finite.lean ====
/-
  Finite inputs are real.

  The precondition says, of each of the four argument arrays, that every entry's absolute value is below +∞, and conjoins
  the four. On the extended reals |x| < +∞ leaves exactly the real numbers: at either infinity the absolute value is +∞.
  So under the precondition every entry of every argument array is (the coercion of) a real number.
-/
import proofs.«127425_g28106265985550_cont_9to1_1613_23_alg».proof.Pre_finite_inputs
import Idealize.ShloMosaic.PureOps.Ideal
import Idealize.ShloMosaic.Lib.ReduceAll
import Idealize.ShloMosaic.Lib.ValueIdx

noncomputable section

namespace Cert.Finite

open Idealize.ShloMosaic Cert.Pre_finite_inputs

instance : Subsingleton Cert.Pre_finite_inputs.S_.Idx := ⟨fun a b => funext fun d => d.elim0⟩

/-- An extended real whose absolute value is below +∞ is a real. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => exfalso; simp [Ideal.cmp] at h
  | top => exfalso; simp [Ideal.cmp] at h
  | coe r => exact ⟨r, rfl⟩

variable [Cert.Pre_finite_inputs.Facts]

/-- Under the precondition every entry of the four argument arrays is a real number. -/
theorem reals_of_pre (a0 : FVec Ideal S4096x64 .f32) (a1 : FVec Ideal S1x1024x64 .f32) (a2 : FVec Ideal S64x64 .f32)
    (a3 : FVec Ideal S64 .f32) (h : Cert.Pre_finite_inputs.fn (F := Ideal) a0 a1 a2 a3 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) := by
  have h0 := congrFun h ValueIdx.ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨fun i => real_of_abs_lt_top (a0 i) (Host.reduce_andi_all _ _ _ _ _ h0' i),
    fun i => real_of_abs_lt_top (a1 i) (Host.reduce_andi_all _ _ _ _ _ h1 i),
    fun i => real_of_abs_lt_top (a2 i) (Host.reduce_andi_all _ _ _ _ _ h2 i),
    fun i => real_of_abs_lt_top (a3 i) (Host.reduce_andi_all _ _ _ _ _ h3 i)⟩

end Cert.Finite

end
-- ==== Proof.lean ====
/- Attention of 4096 query rows against a bank of 1024 memory rows of width 64: the kernel and the reference compute the
   same array over the extended reals when every input is finite.

   Both project each query row x (q = x Wᵀ + b), score it against every memory row (s_n = ⟨q, M_n⟩ / 8), and return the
   softmax-weighted mean of the memory rows, a_d = Σ_n e^{s_n} M_nd / Σ_n e^{s_n}. The kernel folds the factor 1/8 into W
   and b before the products (1/8 and 8 are exact binary numbers, so nothing is rounded by that), appends a column of ones
   to the bank so that one product yields both the unnormalised sums and the total mass, and multiplies by the reciprocal
   of the mass; it works on two blocks of 2048 rows. The reference subtracts each row's largest score before
   exponentiating and normalises the weights before the last product. With finite inputs every intermediate number is a
   real, the mass is positive, and the shift cancels: the two arrays are equal entry by entry. The laws used —
   distributivity, cancelling a common factor — fail at the infinities, so finiteness is used, through "every entry of
   every argument is a real number".

   Modules: AttnReal (the mathematics over ℝ, the constants, the whole result as one function), KernelRow (the kernel body
   at a row), KernelArray (from the two blocks to the whole result), RefAtIndex (the reference at an index), Finite (the
   precondition gives real entries); the frames are the generated ones, and the idealization rewrote nothing. -/
import proofs.«127425_g28106265985550_cont_9to1_1613_23_alg».proof.Defs
import proofs.«127425_g28106265985550_cont_9to1_1613_23_alg».proof.Proof.Gen.Kernel
import proofs.«127425_g28106265985550_cont_9to1_1613_23_alg».proof.Proof.Gen.Kernel.Skeleton
import proofs.«127425_g28106265985550_cont_9to1_1613_23_alg».proof.Proof.Gen.Kernel.Launch
import proofs.«127425_g28106265985550_cont_9to1_1613_23_alg».proof.Proof.Gen.Kernel.Points
import proofs.«127425_g28106265985550_cont_9to1_1613_23_alg».proof.Proof.Gen.Kernel.Frame
import proofs.«127425_g28106265985550_cont_9to1_1613_23_alg».proof.Proof.Gen.KernelIdeal
import proofs.«127425_g28106265985550_cont_9to1_1613_23_alg».proof.Proof.Gen.KernelIdeal.Skeleton
import proofs.«127425_g28106265985550_cont_9to1_1613_23_alg».proof.Proof.Gen.KernelIdeal.Launch
import proofs.«127425_g28106265985550_cont_9to1_1613_23_alg».proof.Proof.Gen.KernelIdeal.Points
import proofs.«127425_g28106265985550_cont_9to1_1613_23_alg».proof.Proof.Gen.KernelIdeal.Frame
import proofs.«127425_g28106265985550_cont_9to1_1613_23_alg».proof.Proof.Gen.ReferenceIdeal
import proofs.«127425_g28106265985550_cont_9to1_1613_23_alg».proof.Proof.Gen.Pre_finite_inputs
import proofs.«127425_g28106265985550_cont_9to1_1613_23_alg».proof.Proof.Gen.KernelIdeal.Value
import proofs.«127425_g28106265985550_cont_9to1_1613_23_alg».proof.Proof.Gen.ReferenceIdeal.Run
import proofs.«127425_g28106265985550_cont_9to1_1613_23_alg».proof.Proof.Gen.ReferenceIdeal.Read
import proofs.«127425_g28106265985550_cont_9to1_1613_23_alg».proof.Proof.KernelArray
import proofs.«127425_g28106265985550_cont_9to1_1613_23_alg».proof.Proof.RefAtIndex
import proofs.«127425_g28106265985550_cont_9to1_1613_23_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel launch: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on finite arguments both programs end with the attention array of those arguments: the
    entries of the arguments are real numbers (the precondition), the kernel's two blocks make up the whole-array
    function, and the reference's last stage is the same function. -/
theorem algebraic : Cert.algebraic_KernelIdeal_ReferenceIdeal := by
  intro m ρ m' ρ' hpre hagree
  have hreal := fun c => Cert.Finite.reals_of_pre _ _ _ _ (hpre c)
  choose A0 hA0 using fun c => (hreal c).1
  choose A1 hA1 using fun c => (hreal c).2.1
  choose A2 hA2 using fun c => (hreal c).2.2.1
  choose A3 hA3 using fun c => (hreal c).2.2.2
  refine ⟨fun c => Cert.Attn.outArray (A0 c) (A1 c) (A2 c) (A3 c),
    Cert.KernelIdeal.Whole.run m ρ A0 A1 A2 A3 hA0 hA1 hA2 hA3, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v21_eq _ _ _ _).trans ?_
  exact Cert.ReferenceIdeal.AtIndex.result_eq _ _ _ _ (A0 c) (A1 c) (A2 c) (A3 c)
    (fun i => by rw [(hagree c).1]; exact hA0 c i)
    (fun i => by rw [(hagree c).2.1]; exact hA1 c i)
    (fun i => by rw [(hagree c).2.2.1]; exact hA2 c i)
    (fun i => by rw [(hagree c).2.2.2]; exact hA3 c i)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
